-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x1024 : Shape := ⟨2, ![10000, 1024]⟩
abbrev S2x160000 : Shape := ⟨2, ![2, 160000]⟩
abbrev S1024x1024 : Shape := ⟨2, ![1024, 1024]⟩
abbrev S1024 : Shape := ⟨1, ![1024]⟩
abbrev S_ : Shape := ⟨0, ![]⟩

class Facts : Prop where
  bcast_S_S10000x1024 : S_.BroadcastsInDim S10000x1024 (![] : Fin 0 → Fin S10000x1024.rank)
  reducesTo_S10000x1024_S_d0_1 : S10000x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S10000x1024 .f32) (main_arg1 : IVec S2x160000 32) (main_arg2 : FVec F S1024x1024 .f32) (main_arg3 : FVec F S1024 .f32) : IVec S_ 1 :=
  let main_v0 : FVec F S10000x1024 .f32 := Host.absf main_arg0
  let main_cst : FVec F S_ .f32 := constant S_ .f32 0x7F800000#32
  let main_v1 : FVec F S10000x1024 .f32 := broadcastInDim S10000x1024 ![] bcast_S_S10000x1024 main_cst
  let main_v2 : IVec S10000x1024 1 := cmpf .olt main_v0 main_v1
  let main_c : IVec S_ 1 := constantI S_ 1 1#1
  let main_v3 : IVec S_ 1 := (fun x v => Host.reduce IntOp.andi x v reducesTo_S10000x1024_S_d0_1 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S10000x1024 : Shape := ⟨2, ![10000, 1024]⟩
abbrev S2x160000 : Shape := ⟨2, ![2, 160000]⟩
abbrev S1024x1024 : Shape := ⟨2, ![1024, 1024]⟩
abbrev S1024 : Shape := ⟨1, ![1024]⟩
abbrev S10000 : Shape := ⟨1, ![10000]⟩
abbrev S1x160000 : Shape := ⟨2, ![1, 160000]⟩
abbrev S160000 : Shape := ⟨1, ![160000]⟩
abbrev S170000 : Shape := ⟨1, ![170000]⟩
abbrev S_ : Shape := ⟨0, ![]⟩
abbrev S170000x1 : Shape := ⟨2, ![170000, 1]⟩
abbrev S1000x1024 : Shape := ⟨2, ![1000, 1024]⟩
abbrev S170000x1024 : Shape := ⟨2, ![170000, 1024]⟩
abbrev S1x1024 : Shape := ⟨2, ![1, 1024]⟩

abbrev nBuf : Space → Nat
  | .hbm => 62
  | .vmem => 10
  | .smem => 0
  | _ => 0

abbrev bufTy : (tb : Table) → Fin (tcTables nBuf tb) → BufTy
  | .hbm, ⟨0, _⟩ => ⟨S10000x1024, .f32⟩
  | .hbm, ⟨1, _⟩ => ⟨S2x160000, .i32⟩
  | .hbm, ⟨2, _⟩ => ⟨S1024x1024, .f32⟩
  | .hbm, ⟨3, _⟩ => ⟨S1024, .f32⟩
  | .hbm, ⟨4, _⟩ => ⟨S10000, .i32⟩
  | .hbm, ⟨5, _⟩ => ⟨S1x160000, .i32⟩
  | .hbm, ⟨6, _⟩ => ⟨S160000, .i32⟩
  | .hbm, ⟨7, _⟩ => ⟨S170000, .i32⟩
  | .hbm, ⟨8, _⟩ => ⟨S1x160000, .i32⟩
  | .hbm, ⟨9, _⟩ => ⟨S160000, .i32⟩
  | .hbm, ⟨10, _⟩ => ⟨S170000, .i32⟩
  | .hbm, ⟨11, _⟩ => ⟨S_, .f32⟩
  | .hbm, ⟨12, _⟩ => ⟨S170000, .f32⟩
  | .hbm, ⟨13, _⟩ => ⟨S_, .f32⟩
  | .hbm, ⟨14, _⟩ => ⟨S10000, .f32⟩
  | .hbm, ⟨15, _⟩ => ⟨S170000x1, .i32⟩
  | .hbm, ⟨16, _⟩ => ⟨S10000, .f32⟩
  | .hbm, ⟨17, _⟩ => ⟨S_, .f32⟩
  | .hbm, ⟨18, _⟩ => ⟨S10000, .f32⟩
  | .hbm, ⟨19, _⟩ => ⟨S10000, .i1⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S_, .i32⟩
  | .hbm, ⟨25, _⟩ => ⟨S170000, .i32⟩
  | .hbm, ⟨26, _⟩ => ⟨S170000, .i1⟩
  | .hbm, ⟨27, _⟩ => ⟨S_, .i32⟩
  | .hbm, ⟨28, _⟩ => ⟨S170000, .i32⟩
  | .hbm, ⟨29, _⟩ => ⟨S170000, .i32⟩
  | .hbm, ⟨30, _⟩ => ⟨S170000, .i32⟩
  | .hbm, ⟨31, _⟩ => ⟨S170000x1, .i32⟩
  | .hbm, ⟨32, _⟩ => ⟨S170000, .f32⟩
  | .hbm, ⟨33, _⟩ => ⟨S_, .i32⟩
  | .hbm, ⟨34, _⟩ => ⟨S170000, .i32⟩
  | .hbm, ⟨35, _⟩ => ⟨S170000, .i1⟩
  | .hbm, ⟨36, _⟩ => ⟨S_, .i32⟩
  | .hbm, ⟨37, _⟩ => ⟨S170000, .i32⟩
  | .hbm, ⟨38, _⟩ => ⟨S170000, .i32⟩
  | .hbm, ⟨39, _⟩ => ⟨S170000, .i32⟩
  | .hbm, ⟨40, _⟩ => ⟨S170000x1, .i32⟩
  | .hbm, ⟨41, _⟩ => ⟨S170000, .f32⟩
  | .hbm, ⟨42, _⟩ => ⟨S170000, .f32⟩
  | .hbm, ⟨43, _⟩ => ⟨S10000x1024, .f32⟩
  | .hbm, ⟨44, _⟩ => ⟨S_, .i32⟩
  | .hbm, ⟨45, _⟩ => ⟨S170000, .i32⟩
  | .hbm, ⟨46, _⟩ => ⟨S170000, .i1⟩
  | .hbm, ⟨47, _⟩ => ⟨S_, .i32⟩
  | .hbm, ⟨48, _⟩ => ⟨S170000, .i32⟩
  | .hbm, ⟨49, _⟩ => ⟨S170000, .i32⟩
  | .hbm, ⟨50, _⟩ => ⟨S170000, .i32⟩
  | .hbm, ⟨51, _⟩ => ⟨S170000x1, .i32⟩
  | .hbm, ⟨52, _⟩ => ⟨S170000x1024, .f32⟩
  | .hbm, ⟨53, _⟩ => ⟨S170000x1, .f32⟩
  | .hbm, ⟨54, _⟩ => ⟨S170000x1024, .f32⟩
  | .hbm, ⟨55, _⟩ => ⟨S170000x1024, .f32⟩
  | .hbm, ⟨56, _⟩ => ⟨S_, .f32⟩
  | .hbm, ⟨57, _⟩ => ⟨S10000x1024, .f32⟩
  | .hbm, ⟨58, _⟩ => ⟨S170000x1, .i32⟩
  | .hbm, ⟨59, _⟩ => ⟨S10000x1024, .f32⟩
  | .hbm, ⟨60, _⟩ => ⟨S1x1024, .f32⟩
  | .hbm, ⟨61, _⟩ => ⟨S10000x1024, .f32⟩
  | .local _ .vmem, ⟨0, _⟩ => ⟨S1000x1024, .f32⟩
  | .local _ .vmem, ⟨1, _⟩ => ⟨S1000x1024, .f32⟩
  | .local _ .vmem, ⟨2, _⟩ => ⟨S1024x1024, .f32⟩
  | .local _ .vmem, ⟨3, _⟩ => ⟨S1000x1024, .f32⟩
  | .local _ .vmem, ⟨4, _⟩ => ⟨S1000x1024, .f32⟩
  | .local _ .vmem, ⟨5, _⟩ => ⟨S1000x1024, .f32⟩
  | .local _ .vmem, ⟨6, _⟩ => ⟨S1000x1024, .f32⟩
  | .local _ .vmem, ⟨7, _⟩ => ⟨S1x1024, .f32⟩
  | .local _ .vmem, ⟨8, _⟩ => ⟨S1000x1024, .f32⟩
  | .local _ .vmem, ⟨9, _⟩ => ⟨S1000x1024, .f32⟩
  | _, _ => ⟨S10000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_6 : Ref sig .tc := ⟨.hbm, 44, rfl⟩
abbrev main_v32 : Ref sig .tc := ⟨.hbm, 45, rfl⟩
abbrev main_v33 : Ref sig .tc := ⟨.hbm, 46, rfl⟩
abbrev main_c_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x160000_S1x160000_0_0 : S2x160000.Slices ![0, 0] S1x160000
  shapeCasts_S1x160000_S160000 : S1x160000.ShapeCasts S160000
  concatenates_S160000_S10000_S170000_d0 : Shape.Concatenates [S160000, S10000] S170000 0
  slices_S2x160000_S1x160000_1_0 : S2x160000.Slices ![1, 0] S1x160000
  bcast_S_S170000 : S_.BroadcastsInDim S170000 (![] : Fin 0 → Fin S170000.rank)
  bcast_S_S10000 : S_.BroadcastsInDim S10000 (![] : Fin 0 → Fin S10000.rank)
  bcast_S170000_S170000x1_0 : S170000.BroadcastsInDim S170000x1 (![0] : Fin 1 → Fin S170000x1.rank)
  inb_S1000x1024_S1000x1024_0_0 : ∀ a, (![0, 0] : Fin 2 → Nat) a + S1000x1024.size a ≤ S1000x1024.size a
  h_S1000x1024 : 0 < S1000x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  bcast_S170000x1_S170000x1024_0_1 : S170000x1.BroadcastsInDim S170000x1024 (![0, 1] : Fin 2 → Fin S170000x1024.rank)
  bcast_S_S10000x1024 : S_.BroadcastsInDim S10000x1024 (![] : Fin 0 → Fin S10000x1024.rank)
  shapeCasts_S1024_S1x1024 : S1024.ShapeCasts S1x1024
  shapeCasts_S1000x1024_S1000x1024 : S1000x1024.ShapeCasts S1000x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1000x1024 : S1x1024.Broadcasts S1000x1024
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  dot_S1000x1024_S1024x1024_S1000x1024_1_0_0_1_n_n_wf : DotDims.WF S1000x1024 S1024x1024 S1000x1024 [1] [0] [0] [1] [] []
  gather_S10000x1024_S170000x1_S170000x1024_1_0_n_n_0_1_11024_wf : GatherDims.WF S10000x1024 S170000x1 S170000x1024 [1] [0] [] [0] [] 1 ![1, 1024]
  scatter_S10000x1024_S170000x1_S170000x1024_1_0_0_1_wf : ScatterDims.WF S10000x1024 S170000x1 S170000x1024 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1024.size a ≤ S10000x1024.size a
  hwx0_0 : ∀ i : grid0.Coords, EltTy.bits .f32 = 32 ∨ (Rect.block (s := S10000x1024) S1000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1024.size a ≤ S10000x1024.size a
  hwx0_2 : ∀ i : grid0.Coords, EltTy.bits .f32 = 32 ∨ (Rect.block (s := S10000x1024) S1000x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x1024.size a ≤ S10000x1024.size a
  hwx1_0 : ∀ i : grid1.Coords, EltTy.bits .f32 = 32 ∨ (Rect.block (s := S10000x1024) S1000x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x1024.size a ≤ S10000x1024.size a
  hwx1_2 : ∀ i : grid1.Coords, EltTy.bits .f32 = 32 ∨ (Rect.block (s := S10000x1024) S1000x1024.size (cc1_transform_2 i) (hinb1_2 i)).WholeWords (EltTy.packing .f32)

variable [Facts₀]

def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def dot_S1000x1024_S1024x1024_S1000x1024_1_0_0_1_n_n : DotDims S1000x1024 S1024x1024 S1000x1024 where
  lhsContracting := [1]
  rhsContracting := [0]
  lhsNonContracting := [0]
  rhsNonContracting := [1]
  lhsBatch := []
  rhsBatch := []
  wf := dot_S1000x1024_S1024x1024_S1000x1024_1_0_0_1_n_n_wf
def gather_S10000x1024_S170000x1_S170000x1024_1_0_n_n_0_1_11024 : GatherDims S10000x1024 S170000x1 S170000x1024 where
  offsetDims := [1]
  collapsedSliceDims := [0]
  operandBatchingDims := []
  startIndicesBatchingDims := []
  startIndexMap := [0]
  indexVectorDim := 1
  sliceSizes := ![1, 1024]
  wf := gather_S10000x1024_S170000x1_S170000x1024_1_0_n_n_0_1_11024_wf
def scatter_S10000x1024_S170000x1_S170000x1024_1_0_0_1 : ScatterDims S10000x1024 S170000x1 S170000x1024 where
  updateWindowDims := [1]
  insertedWindowDims := [0]
  scatterDimsToOperandDims := [0]
  indexVectorDim := 1
  wf := scatter_S10000x1024_S170000x1_S170000x1024_1_0_0_1_wf

abbrev win0_0 : Pipeline.Window sig grid0 :=
  Pipeline.Window.ofSpec (Memref.whole main_arg0) S1000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1000x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S1000x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1000x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x1024 : Shape := ⟨2, ![10000, 1024]⟩
abbrev S2x160000 : Shape := ⟨2, ![2, 160000]⟩
abbrev S1024x1024 : Shape := ⟨2, ![1024, 1024]⟩
abbrev S1024 : Shape := ⟨1, ![1024]⟩
abbrev S10000 : Shape := ⟨1, ![10000]⟩
abbrev S1x160000 : Shape := ⟨2, ![1, 160000]⟩
abbrev S160000 : Shape := ⟨1, ![160000]⟩
abbrev S170000 : Shape := ⟨1, ![170000]⟩
abbrev S_ : Shape := ⟨0, ![]⟩
abbrev S170000x1 : Shape := ⟨2, ![170000, 1]⟩
abbrev S170000x1024 : Shape := ⟨2, ![170000, 1024]⟩
abbrev S1x1024 : Shape := ⟨2, ![1, 1024]⟩

abbrev nBuf : Space → Nat
  | .hbm => 66
  | .vmem => 0
  | .smem => 0
  | _ => 0

abbrev bufTy : (tb : Table) → Fin (tcTables nBuf tb) → BufTy
  | .hbm, ⟨0, _⟩ => ⟨S10000x1024, .f32⟩
  | .hbm, ⟨1, _⟩ => ⟨S2x160000, .i32⟩
  | .hbm, ⟨2, _⟩ => ⟨S1024x1024, .f32⟩
  | .hbm, ⟨3, _⟩ => ⟨S1024, .f32⟩
  | .hbm, ⟨4, _⟩ => ⟨S10000, .i32⟩
  | .hbm, ⟨5, _⟩ => ⟨S1x160000, .i32⟩
  | .hbm, ⟨6, _⟩ => ⟨S160000, .i32⟩
  | .hbm, ⟨7, _⟩ => ⟨S170000, .i32⟩
  | .hbm, ⟨8, _⟩ => ⟨S1x160000, .i32⟩
  | .hbm, ⟨9, _⟩ => ⟨S160000, .i32⟩
  | .hbm, ⟨10, _⟩ => ⟨S170000, .i32⟩
  | .hbm, ⟨11, _⟩ => ⟨S_, .f32⟩
  | .hbm, ⟨12, _⟩ => ⟨S170000, .f32⟩
  | .hbm, ⟨13, _⟩ => ⟨S_, .f32⟩
  | .hbm, ⟨14, _⟩ => ⟨S10000, .f32⟩
  | .hbm, ⟨15, _⟩ => ⟨S170000x1, .i32⟩
  | .hbm, ⟨16, _⟩ => ⟨S10000, .f32⟩
  | .hbm, ⟨17, _⟩ => ⟨S_, .f32⟩
  | .hbm, ⟨18, _⟩ => ⟨S10000, .f32⟩
  | .hbm, ⟨19, _⟩ => ⟨S10000, .i1⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S_, .i32⟩
  | .hbm, ⟨25, _⟩ => ⟨S170000, .i32⟩
  | .hbm, ⟨26, _⟩ => ⟨S170000, .i1⟩
  | .hbm, ⟨27, _⟩ => ⟨S_, .i32⟩
  | .hbm, ⟨28, _⟩ => ⟨S170000, .i32⟩
  | .hbm, ⟨29, _⟩ => ⟨S170000, .i32⟩
  | .hbm, ⟨30, _⟩ => ⟨S170000, .i32⟩
  | .hbm, ⟨31, _⟩ => ⟨S170000x1, .i32⟩
  | .hbm, ⟨32, _⟩ => ⟨S170000, .f32⟩
  | .hbm, ⟨33, _⟩ => ⟨S_, .i32⟩
  | .hbm, ⟨34, _⟩ => ⟨S170000, .i32⟩
  | .hbm, ⟨35, _⟩ => ⟨S170000, .i1⟩
  | .hbm, ⟨36, _⟩ => ⟨S_, .i32⟩
  | .hbm, ⟨37, _⟩ => ⟨S170000, .i32⟩
  | .hbm, ⟨38, _⟩ => ⟨S170000, .i32⟩
  | .hbm, ⟨39, _⟩ => ⟨S170000, .i32⟩
  | .hbm, ⟨40, _⟩ => ⟨S170000x1, .i32⟩
  | .hbm, ⟨41, _⟩ => ⟨S170000, .f32⟩
  | .hbm, ⟨42, _⟩ => ⟨S170000, .f32⟩
  | .hbm, ⟨43, _⟩ => ⟨S10000x1024, .f32⟩
  | .hbm, ⟨44, _⟩ => ⟨S_, .i32⟩
  | .hbm, ⟨45, _⟩ => ⟨S170000, .i32⟩
  | .hbm, ⟨46, _⟩ => ⟨S170000, .i1⟩
  | .hbm, ⟨47, _⟩ => ⟨S_, .i32⟩
  | .hbm, ⟨48, _⟩ => ⟨S170000, .i32⟩
  | .hbm, ⟨49, _⟩ => ⟨S170000, .i32⟩
  | .hbm, ⟨50, _⟩ => ⟨S170000, .i32⟩
  | .hbm, ⟨51, _⟩ => ⟨S170000x1, .i32⟩
  | .hbm, ⟨52, _⟩ => ⟨S170000x1024, .f32⟩
  | .hbm, ⟨53, _⟩ => ⟨S170000x1, .f32⟩
  | .hbm, ⟨54, _⟩ => ⟨S170000x1024, .f32⟩
  | .hbm, ⟨55, _⟩ => ⟨S170000x1024, .f32⟩
  | .hbm, ⟨56, _⟩ => ⟨S_, .f32⟩
  | .hbm, ⟨57, _⟩ => ⟨S10000x1024, .f32⟩
  | .hbm, ⟨58, _⟩ => ⟨S170000x1, .i32⟩
  | .hbm, ⟨59, _⟩ => ⟨S10000x1024, .f32⟩
  | .hbm, ⟨60, _⟩ => ⟨S1x1024, .f32⟩
  | .hbm, ⟨61, _⟩ => ⟨S10000x1024, .f32⟩
  | .hbm, ⟨62, _⟩ => ⟨S10000x1024, .f32⟩
  | .hbm, ⟨63, _⟩ => ⟨S_, .f32⟩
  | .hbm, ⟨64, _⟩ => ⟨S10000x1024, .f32⟩
  | .hbm, ⟨65, _⟩ => ⟨S10000x1024, .f32⟩
  | _, _ => ⟨S10000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_6 : Ref sig .tc := ⟨.hbm, 44, rfl⟩
abbrev main_v32 : Ref sig .tc := ⟨.hbm, 45, rfl⟩
abbrev main_v33 : Ref sig .tc := ⟨.hbm, 46, rfl⟩
abbrev main_c_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_call1_cst : Ref sig .tc := ⟨.hbm, 63, rfl⟩
abbrev main_call1_v0 : Ref sig .tc := ⟨.hbm, 64, rfl⟩
abbrev main_v48 : Ref sig .tc := ⟨.hbm, 65, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  concatenates_S160000_S10000_S170000_d0 : Shape.Concatenates [S160000, S10000] S170000 0
  slices_S2x160000_S1x160000_1_0 : S2x160000.Slices ![1, 0] S1x160000
  bcast_S_S170000 : S_.BroadcastsInDim S170000 (![] : Fin 0 → Fin S170000.rank)
  bcast_S_S10000 : S_.BroadcastsInDim S10000 (![] : Fin 0 → Fin S10000.rank)
  bcast_S170000_S170000x1_0 : S170000.BroadcastsInDim S170000x1 (![0] : Fin 1 → Fin S170000x1.rank)
  bcast_S170000x1_S170000x1024_0_1 : S170000x1.BroadcastsInDim S170000x1024 (![0, 1] : Fin 2 → Fin S170000x1024.rank)
  bcast_S_S10000x1024 : S_.BroadcastsInDim S10000x1024 (![] : Fin 0 → Fin S10000x1024.rank)
  bcast_S1024_S1x1024_1 : S1024.BroadcastsInDim S1x1024 (![1] : Fin 1 → Fin S1x1024.rank)
  bcast_S1x1024_S10000x1024_0_1 : S1x1024.BroadcastsInDim S10000x1024 (![0, 1] : Fin 2 → Fin S10000x1024.rank)
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  dot_S10000x1024_S1024x1024_S10000x1024_1_0_0_1_n_n_wf : DotDims.WF S10000x1024 S1024x1024 S10000x1024 [1] [0] [0] [1] [] []
  gather_S10000x1024_S170000x1_S170000x1024_1_0_n_n_0_1_11024_wf : GatherDims.WF S10000x1024 S170000x1 S170000x1024 [1] [0] [] [0] [] 1 ![1, 1024]
  scatter_S10000x1024_S170000x1_S170000x1024_1_0_0_1_wf : ScatterDims.WF S10000x1024 S170000x1 S170000x1024 [1] [0] [0] 1

variable [Facts₀]

def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def dot_S10000x1024_S1024x1024_S10000x1024_1_0_0_1_n_n : DotDims S10000x1024 S1024x1024 S10000x1024 where
  lhsContracting := [1]
  rhsContracting := [0]
  lhsNonContracting := [0]
  rhsNonContracting := [1]
  lhsBatch := []
  rhsBatch := []
  wf := dot_S10000x1024_S1024x1024_S10000x1024_1_0_0_1_n_n_wf
def gather_S10000x1024_S170000x1_S170000x1024_1_0_n_n_0_1_11024 : GatherDims S10000x1024 S170000x1 S170000x1024 where
  offsetDims := [1]
  collapsedSliceDims := [0]
  operandBatchingDims := []
  startIndicesBatchingDims := []
  startIndexMap := [0]
  indexVectorDim := 1
  sliceSizes := ![1, 1024]
  wf := gather_S10000x1024_S170000x1_S170000x1024_1_0_n_n_0_1_11024_wf
def scatter_S10000x1024_S170000x1_S170000x1024_1_0_0_1 : ScatterDims S10000x1024 S170000x1 S170000x1024 where
  updateWindowDims := [1]
  insertedWindowDims := [0]
  scatterDimsToOperandDims := [0]
  indexVectorDim := 1
  wf := scatter_S10000x1024_S170000x1_S170000x1024_1_0_0_1_wf

class Facts : Prop extends Facts₀ where

variable [Facts]
-- ==== Proof.Layer.lean ====
/-
  The graph-convolution layer as functions of whole arrays, entry by entry, on the extended reals.

  Both programs compute  relu (A (x · W) + b):  a dense transform of the node features, an aggregation `A` over the
  graph's edges (rows gathered at the source nodes, scaled by the symmetric degree normalisation, added into the
  destination nodes' rows), a bias added along the rows, and a threshold at zero. They differ only in how the first
  and the last step are laid out: the kernel forms the product block by block, 1000 rows at a time, and adds the bias
  to each block from a one-row copy of it, where the reference forms one product and adds the bias spread over the
  whole array. The aggregation in the middle is the same chain of host operations in both and is never opened here.

  So two functions are enough to say what each side holds: `transform`, the product, and `activate`, bias and
  threshold. Neither law used to join the two sides moves a factor across a sum or cancels anything, so nothing here
  asks the entries to be finite.
-/
import Idealize.ShloMosaic.PureOps.Ideal
import Idealize.ShloMosaic.Lib.ValueIdx

noncomputable section

open scoped BigOperators

namespace Cert.Layer

open Idealize.ShloMosaic Idealize.ShloMosaic.ValueIdx

/-- The row of an entry of a 10000 × 1024 array, as a number below 10000. -/
abbrev row (i : (⟨2, ![10000, 1024]⟩ : Shape).Idx) : Fin 10000 := ⟨(i 0).val, (i 0).isLt⟩
/-- The column of an entry of a 10000 × 1024 array, as a number below 1024. -/
abbrev col (i : (⟨2, ![10000, 1024]⟩ : Shape).Idx) : Fin 1024 := ⟨(i 1).val, (i 1).isLt⟩

/-- The dense transform `h = x · W`: entry `(r, c)` is the sum over `k` of `x (r, k) * w (k, c)`. -/
def transform (x : (⟨2, ![10000, 1024]⟩ : Shape).Idx → EReal) (w : (⟨2, ![1024, 1024]⟩ : Shape).Idx → EReal) :
    (⟨2, ![10000, 1024]⟩ : Shape).Idx → EReal :=
  fun i => ∑ k : Fin 1024, x (ix2 (row i) k) * w (ix2 k (col i))

/-- Bias and threshold: entry `(r, c)` is the larger of `a (r, c) + b c` and zero — zero written as the float word
    both programs print, which is the same word on both sides and is never evaluated. -/
def activate (a : (⟨2, ![10000, 1024]⟩ : Shape).Idx → EReal) (b : (⟨1, ![1024]⟩ : Shape).Idx → EReal) :
    (⟨2, ![10000, 1024]⟩ : Shape).Idx → EReal :=
  fun i => max (a i + b (ix1 (col i))) (Ideal.ofBits .f32 0x00000000#32)

end Cert.Layer

end
-- ==== Proof.HostFunctions.lean ====
/-
  The host operations around the two regions, as functions of arrays.

  From the edge list `e` (two rows of 160000 node numbers) the program forms the source and the destination of every
  edge with one self loop per node appended (`sources`, `targets`: 170000 numbers each), the in-degree of every node
  (a scatter-add of ones at the targets), its inverse square root where the degree is positive and zero elsewhere
  (`inverseRootDegree`), and the weight of every edge, the product of that quantity at its two ends (`edgeWeights`);
  a negative node number is first wrapped by adding 10000 (`wrapped`). Then, given an array `h` of one row per node,
  `aggregate` gathers the row of every edge's source, scales it by the edge's weight, and adds it into the row of the
  edge's target, starting from zeros.

  These operations are the same in the kernel's program and in the reference, so nothing is proved about them: they are
  only NAMED here, once, so that both sides can be stated over the same function of the arguments: `layer`, which puts
  the dense transform before them and bias and threshold after.
-/
import proofs.«114193_j7945689497773_1_alg».proof.Proof.Gen.KernelIdeal
import proofs.«114193_j7945689497773_1_alg».proof.Proof.Layer
import Idealize.ShloMosaic.PureOps.Ideal

noncomputable section

namespace Cert.KernelIdeal.HostChain

open Cert.KernelIdeal Cert.KernelIdeal.Gen
open Idealize.ShloMosaic Idealize.ShloMosaic.TcCoe

/-! ## The functions -/

/-- Every edge's source node, then every node once (its self loop). -/
def sources (e : IVec S2x160000 32) : IVec S170000 32 :=
  concatenate S170000 0
    [⟨S160000, shapeCast _ (extractStridedSlice S1x160000 ![0, 0] e slices_S2x160000_S1x160000_0_0) shapeCasts_S1x160000_S160000⟩,
     ⟨S10000, iotaInDim S10000 32 0⟩] concatenates_S160000_S10000_S170000_d0

/-- Every edge's target node, then every node once (its self loop). -/
def targets (e : IVec S2x160000 32) : IVec S170000 32 :=
  concatenate S170000 0
    [⟨S160000, shapeCast _ (extractStridedSlice S1x160000 ![1, 0] e slices_S2x160000_S1x160000_1_0) shapeCasts_S1x160000_S160000⟩,
     ⟨S10000, iotaInDim S10000 32 0⟩] concatenates_S160000_S10000_S170000_d0

/-- A negative node number counts from the end: `i + 10000` where `i < 0`, else `i`. -/
def wrapped (i : IVec S170000 32) : IVec S170000 32 :=
  select (cmpi .slt i (broadcastInDim S170000 ![] bcast_S_S170000 (constantI S_ 32 0#32)))
    (addi i (broadcastInDim S170000 ![] bcast_S_S170000 (constantI S_ 32 10000#32))) i

/-- Every node's in-degree, self loop included: ones added at the targets, from zeros. -/
def degree (dst : IVec S170000 32) : FVec Ideal S10000 .f32 :=
  Host.scatterAdd (F := Ideal) scatter_S10000_S170000x1_S170000_n_0_0_1
    (broadcastInDim S10000 ![] bcast_S_S10000 (constant (F := Ideal) S_ .f32 0x00000000#32))
    (broadcastInDim S170000x1 ![0] bcast_S170000_S170000x1_0 dst)
    (broadcastInDim S170000 ![] bcast_S_S170000 (constant (F := Ideal) S_ .f32 0x3F800000#32))

/-- `deg^(-1/2)` where the degree is positive, zero elsewhere. -/
def inverseRootDegree (dst : IVec S170000 32) : FVec Ideal S10000 .f32 :=
  select (cmpf (F := Ideal) .ogt (degree dst) (broadcastInDim S10000 ![] bcast_S_S10000 (constant (F := Ideal) S_ .f32 0x00000000#32)))
    (Host.rsqrt (F := Ideal) (degree dst))
    (broadcastInDim S10000 ![] bcast_S_S10000 (constant (F := Ideal) S_ .f32 0x00000000#32))

/-- Every edge's weight from a given `d` per node: `d` at the edge's source times `d` at its target. -/
def edgeWeightsFrom (d : FVec Ideal S10000 .f32) (src dst : IVec S170000 32) : FVec Ideal S170000 .f32 :=
  mulf (F := Ideal)
    (Host.gather gather_S10000_S170000x1_S170000_n_0_n_n_0_1_1 d
      (broadcastInDim S170000x1 ![0] bcast_S170000_S170000x1_0 (wrapped src)))
    (Host.gather gather_S10000_S170000x1_S170000_n_0_n_n_0_1_1 d
      (broadcastInDim S170000x1 ![0] bcast_S170000_S170000x1_0 (wrapped dst)))

/-- Every edge's weight: `deg^(-1/2)` at its source times `deg^(-1/2)` at its target. -/
def edgeWeights (src dst : IVec S170000 32) : FVec Ideal S170000 .f32 :=
  edgeWeightsFrom (inverseRootDegree dst) src dst

/-- The aggregation over the edges: the row of `h` at every edge's source, scaled by the edge's weight, added into
    the row of the edge's target, from zeros. -/
def aggregate (src dst : IVec S170000 32) (weights : FVec Ideal S170000 .f32)
    (h : FVec Ideal S10000x1024 .f32) : FVec Ideal S10000x1024 .f32 :=
  Host.scatterAdd (F := Ideal) scatter_S10000x1024_S170000x1_S170000x1024_1_0_0_1
    (broadcastInDim S10000x1024 ![] bcast_S_S10000x1024 (constant (F := Ideal) S_ .f32 0x00000000#32))
    (broadcastInDim S170000x1 ![0] bcast_S170000_S170000x1_0 dst)
    (mulf (F := Ideal)
      (Host.gather gather_S10000x1024_S170000x1_S170000x1024_1_0_n_n_0_1_11024 h
        (broadcastInDim S170000x1 ![0] bcast_S170000_S170000x1_0 (wrapped src)))
      (broadcastInDim S170000x1024 ![0, 1] bcast_S170000x1_S170000x1024_0_1
        (broadcastInDim S170000x1 ![0] bcast_S170000_S170000x1_0 weights)))

/-! ## The layer -/

/-- The whole layer of the four arguments: the dense transform of the features, aggregated over the edge list's edges
    with their symmetric weights, then bias and threshold. Both programs' results are stated as this one term. -/
def layer (x : FVec Ideal S10000x1024 .f32) (e : IVec S2x160000 32) (w : FVec Ideal S1024x1024 .f32)
    (b : FVec Ideal S1024 .f32) : FVec Ideal S10000x1024 .f32 :=
  Layer.activate (aggregate (sources e) (targets e) (edgeWeights (sources e) (targets e)) (Layer.transform x w)) b

end Cert.KernelIdeal.HostChain

end
-- ==== Proof.HostChain.lean ====
/-
  What the buffers the two regions read hold when each region is entered.

  The kernel's program runs three stretches of host operations before the matrix-product region and one between the
  two regions. Each buffer a region reads was written by one of them, so its contents at the region's entry are the
  operations' results run back through the stretch — and that composite is the named function of the arguments
  (the sources and targets of the edge list, the edge weights, the aggregation of what region 0 left, the bias as one
  row). The three arguments the regions read are written by no host operation and are as launched.
-/
import proofs.«114193_j7945689497773_1_alg».proof.Proof.Gen.KernelIdeal.Frame
import proofs.«114193_j7945689497773_1_alg».proof.Proof.HostFunctions
import Idealize.ShloMosaic.Lib.StableHlo.Run

set_option maxRecDepth 16384

noncomputable section

namespace Cert.KernelIdeal.HostChain

open Cert.KernelIdeal Cert.KernelIdeal.Gen
open Idealize.ShloMosaic Idealize.ShloMosaic.TcCoe Idealize.SL.Sem Idealize.ShloMosaic.StableHlo

/-! ## What the buffers hold when region 0 is entered -/

variable (m : (ℓ : Loc nD τ sig) → Buf (Elt Ideal) ℓ) (ρ : Dev nD → PrngReg)

/-- The sources' buffer holds the sources of the edge list as launched. -/
theorem sources_at_entry (c : Dev nD) :
    W3 m ρ c (Proc.devRef .tc main_v3) = sources (m ((c : Thread nD τ).loc main_arg1)) := by
  show after hostOps0_2 (after hostOps0_1 (after hostOps0 (W0 m ρ c))) (Proc.devRef .tc main_v3) = _
  dsimp only [hostOps0_2, hostOps0_1, hostOps0]
  after_results_simp <;> rfl

/-- The targets' buffer holds the targets of the edge list as launched. -/
theorem targets_at_entry (c : Dev nD) :
    W3 m ρ c (Proc.devRef .tc main_v6) = targets (m ((c : Thread nD τ).loc main_arg1)) := by
  show after hostOps0_2 (after hostOps0_1 (after hostOps0 (W0 m ρ c))) (Proc.devRef .tc main_v6) = _
  dsimp only [hostOps0_2, hostOps0_1, hostOps0]
  after_results_simp <;> rfl

/-! The weights are run back one stretch at a time, each stretch from arbitrary contents `U` of the buffers. -/

/-- The last stretch before region 0: the weights from the per-node quantity, the sources and the targets. -/
theorem weights_step (U : Valuation τ sig (Elt Ideal)) :
    after hostOps0_2 U (Proc.devRef .tc main_v30)
      = edgeWeightsFrom (U (Proc.devRef .tc main_v15)) (U (Proc.devRef .tc main_v3)) (U (Proc.devRef .tc main_v6)) := by
  dsimp only [hostOps0_2]
  after_results_simp <;> rfl

/-- The middle stretch is one select: the root where the mask is set, the zeros elsewhere. -/
theorem where_step (U : Valuation τ sig (Elt Ideal)) :
    after hostOps0_1 U (Proc.devRef .tc main_v15)
      = select (U (Proc.devRef .tc main_v12)) (U (Proc.devRef .tc main_v13)) (U (Proc.devRef .tc main_v14)) := by
  dsimp only [hostOps0_1]
  after_results_simp <;> rfl
/-- It writes neither the sources nor the targets. -/
theorem where_keeps_sources (U : Valuation τ sig (Elt Ideal)) :
    after hostOps0_1 U (Proc.devRef .tc main_v3) = U (Proc.devRef .tc main_v3) := by
  dsimp only [hostOps0_1]
  after_results_simp <;> rfl
theorem where_keeps_targets (U : Valuation τ sig (Elt Ideal)) :
    after hostOps0_1 U (Proc.devRef .tc main_v6) = U (Proc.devRef .tc main_v6) := by
  dsimp only [hostOps0_1]
  after_results_simp <;> rfl

/-- The first stretch: the sources, the targets, and the three operands of the select — "the degree is positive", the
    degree's inverse square root, and zeros. -/
theorem first_sources (U : Valuation τ sig (Elt Ideal)) :
    after hostOps0 U (Proc.devRef .tc main_v3) = sources (U (Proc.devRef .tc main_arg1)) := by
  dsimp only [hostOps0]
  after_results_simp <;> rfl
theorem first_targets (U : Valuation τ sig (Elt Ideal)) :
    after hostOps0 U (Proc.devRef .tc main_v6) = targets (U (Proc.devRef .tc main_arg1)) := by
  dsimp only [hostOps0]
  after_results_simp <;> rfl
theorem first_mask (U : Valuation τ sig (Elt Ideal)) :
    after hostOps0 U (Proc.devRef .tc main_v12)
      = cmpf (F := Ideal) .ogt (degree (targets (U (Proc.devRef .tc main_arg1))))
          (broadcastInDim S10000 ![] bcast_S_S10000 (constant (F := Ideal) S_ .f32 0x00000000#32)) := by
  dsimp only [hostOps0]
  after_results_simp <;> rfl
theorem first_root (U : Valuation τ sig (Elt Ideal)) :
    after hostOps0 U (Proc.devRef .tc main_v13) = Host.rsqrt (F := Ideal) (degree (targets (U (Proc.devRef .tc main_arg1)))) := by
  dsimp only [hostOps0]
  after_results_simp <;> rfl
theorem first_zeros (U : Valuation τ sig (Elt Ideal)) :
    after hostOps0 U (Proc.devRef .tc main_v14)
      = broadcastInDim S10000 ![] bcast_S_S10000 (constant (F := Ideal) S_ .f32 0x00000000#32) := by
  dsimp only [hostOps0]
  after_results_simp <;> rfl

/-- The weights' buffer holds the edge weights of the edge list as launched: the three stretches composed. The select
    of the first stretch's three operands is `deg^(-1/2)` of the targets, by definition. -/
theorem weights_at_entry (c : Dev nD) :
    W3 m ρ c (Proc.devRef .tc main_v30)
      = edgeWeights (sources (m ((c : Thread nD τ).loc main_arg1))) (targets (m ((c : Thread nD τ).loc main_arg1))) := by
  show after hostOps0_2 (after hostOps0_1 (after hostOps0 (W0 m ρ c))) (Proc.devRef .tc main_v30) = _
  rw [weights_step, where_step, where_keeps_sources, where_keeps_targets,
    first_sources, first_targets, first_mask, first_root, first_zeros]
  rfl

/-- No host operation before region 0 writes an argument: the three arrays the regions read are as launched. -/
theorem features_at_entry (c : Dev nD) :
    W3 m ρ c (Proc.devRef .tc main_arg0) = m ((c : Thread nD τ).loc main_arg0) := by
  show after hostOps0_2 (after hostOps0_1 (after hostOps0 (W0 m ρ c))) (Proc.devRef .tc main_arg0) = _
  dsimp only [hostOps0_2, hostOps0_1, hostOps0]
  after_results_simp <;> rfl
theorem weight_at_entry (c : Dev nD) :
    W3 m ρ c (Proc.devRef .tc main_arg2) = m ((c : Thread nD τ).loc main_arg2) := by
  show after hostOps0_2 (after hostOps0_1 (after hostOps0 (W0 m ρ c))) (Proc.devRef .tc main_arg2) = _
  dsimp only [hostOps0_2, hostOps0_1, hostOps0]
  after_results_simp <;> rfl
theorem bias_at_entry (c : Dev nD) :
    W3 m ρ c (Proc.devRef .tc main_arg3) = m ((c : Thread nD τ).loc main_arg3) := by
  show after hostOps0_2 (after hostOps0_1 (after hostOps0 (W0 m ρ c))) (Proc.devRef .tc main_arg3) = _
  dsimp only [hostOps0_2, hostOps0_1, hostOps0]
  after_results_simp <;> rfl

/-! ## What the buffers hold when region 1 is entered -/

/-- The aggregated array's buffer holds the aggregation of whatever region 0 left in its result array, over the
    sources, targets and weights as region 0 left them. -/
theorem aggregated_at_entry (c : Dev nD) :
    W5 m ρ c (Proc.devRef .tc main_v44)
      = aggregate (W4 m ρ c (Proc.devRef .tc main_v3)) (W4 m ρ c (Proc.devRef .tc main_v6))
          (W4 m ρ c (Proc.devRef .tc main_v30)) (W4 m ρ c (Proc.devRef .tc main_v31)) := by
  show after hostOps1 (W4 m ρ c) (Proc.devRef .tc main_v44) = _
  dsimp only [hostOps1]
  after_results_simp <;> rfl

/-- The one-row bias's buffer holds the bias, as region 0 left it, cast to one row. -/
theorem bias_row_at_entry (c : Dev nD) :
    W5 m ρ c (Proc.devRef .tc main_v45)
      = shapeCast S1x1024 (W4 m ρ c (Proc.devRef .tc main_arg3)) shapeCasts_S1024_S1x1024 := by
  show after hostOps1 (W4 m ρ c) (Proc.devRef .tc main_v45) = _
  dsimp only [hostOps1]
  after_results_simp <;> rfl

end Cert.KernelIdeal.HostChain

end
-- ==== Proof.TransformRegion.lean ====
/-
  Region 0: the dense transform `h = x · W`, formed 1000 rows at a time over a grid of ten points.

  At a point `t` the body loads block `t` of `x` (rows 1000 t … 1000 t + 999, all 1024 columns) and the whole of `W`,
  narrows both to bf16 — the identity on the extended reals — and stores their matrix product into a zero
  accumulator. Entry `(p, q)` of that product is the sum over `k` of `x_blk (p, k) * W (k, q)`, and row `p` of the block
  is row `1000 t + p` of `x`; so what point `t` writes back is block `t` of `Layer.transform x W`. The ten blocks tile the
  10000 rows (row `r` lies in block `r / 1000`), so after the region the result array is `Layer.transform x W`, whatever
  it held before. Everything is stated at the contents `V` the region is entered from.
-/
import proofs.«114193_j7945689497773_1_alg».proof.Proof.Gen.KernelIdeal.Frame
import proofs.«114193_j7945689497773_1_alg».proof.Proof.Layer
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.TransformRegion

open Cert.KernelIdeal Cert.KernelIdeal.Gen
open Idealize.ShloMosaic Idealize.ShloMosaic.TcCoe Idealize.SL.Sem Idealize.ShloMosaic.ValueIdx
open Idealize.ShloMosaic.Pipeline (Dat)

/-! ## One block of the product, entry by entry -/

/-- The dimension numbers of the body's matrix product: a 1000 × 1024 block times the 1024 × 1024 weight, contracting
    the block's columns with the weight's rows. -/
abbrev blockDot : DotDims S1000x1024 S1024x1024 S1000x1024 := dot_S1000x1024_S1024x1024_S1000x1024_1_0_0_1_n_n

/-- The left operand is read in the output entry's row … -/
theorem lhs_row (j : S1000x1024.Idx) (q : blockDot.contr.Idx) : (blockDot.lhsIdx j q 0).val = (j 0).val := by
  unfold DotDims.lhsIdx
  rw [dif_neg (show ¬(0 : Fin S1000x1024.rank) ∈ blockDot.lhsBatch by decide),
    dif_pos (show (0 : Fin S1000x1024.rank) ∈ blockDot.lhsNonContracting by decide)]
  rfl
/-- … at the contraction position's column; -/
theorem lhs_k (j : S1000x1024.Idx) (q : blockDot.contr.Idx) : (blockDot.lhsIdx j q 1).val = (q ⟨0, by decide⟩).val :=
  blockDot.lhsIdx_val_of_single rfl j q
/-- the right operand is read at the contraction position's row … -/
theorem rhs_k (j : S1000x1024.Idx) (q : blockDot.contr.Idx) : (blockDot.rhsIdx j q 0).val = (q ⟨0, by decide⟩).val :=
  blockDot.rhsIdx_val_of_single rfl j q
/-- … in the output entry's column. -/
theorem rhs_col (j : S1000x1024.Idx) (q : blockDot.contr.Idx) : (blockDot.rhsIdx j q 1).val = (j 1).val := by
  unfold DotDims.rhsIdx
  rw [dif_neg (show ¬(1 : Fin S1024x1024.rank) ∈ blockDot.rhsBatch by decide),
    dif_pos (show (1 : Fin S1024x1024.rank) ∈ blockDot.rhsNonContracting by decide)]
  rfl

/-- What the body stores, at entry `j = (p, q)` of the block: the sum over `k` of `x0 (p, k) * x1 (k, q)`. The two
    narrowings to bf16 are the identity on the extended reals, and the accumulator is the zero splat, so the product is
    the bare sum; the sum over the one-axis contraction index is re-indexed by that axis's coordinate. -/
theorem payload_apply (x0 : Vec Ideal S1000x1024 .f32) (x1 : Vec Ideal S1024x1024 .f32) (j : S1000x1024.Idx) :
    k0_pay1 (F := Ideal) x0 x1 j
      = ∑ k : Fin 1024, x0 (ix2 (⟨(j 0).val, (j 0).isLt⟩ : Fin 1000) k) * x1 (ix2 k (⟨(j 1).val, (j 1).isLt⟩ : Fin 1024)) := by
  unfold k0_pay1
  refine (Ideal.matmul_constant_zero_apply blockDot none _ _ j).trans ?_
  rw [← Equiv.sum_comp (contrEquiv1 blockDot 1024 rfl rfl).symm]
  refine Finset.sum_congr rfl fun k _ => ?_
  have hk := contrEquiv1_symm_val blockDot 1024 rfl rfl k
  have el : blockDot.lhsIdx j ((contrEquiv1 blockDot 1024 rfl rfl).symm k) = ix2 (⟨(j 0).val, (j 0).isLt⟩ : Fin 1000) k :=
    funext fun a => Fin.ext (by
      match a with
      | ⟨0, _⟩ => exact lhs_row _ _
      | ⟨1, _⟩ => exact (lhs_k _ _).trans hk)
  have er : blockDot.rhsIdx j ((contrEquiv1 blockDot 1024 rfl rfl).symm k) = ix2 k (⟨(j 1).val, (j 1).isLt⟩ : Fin 1024) :=
    funext fun a => Fin.ext (by
      match a with
      | ⟨0, _⟩ => exact (rhs_k _ _).trans hk
      | ⟨1, _⟩ => exact rhs_col _ _)
  rw [el, er]
  rfl

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The index maps, decided over the ten points: the block of `x` moves down with the output's block and takes all the
    columns, the weight's block is the whole weight, and the output's block at point `t` is block `t`. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Each of the ten blocks of rows is some point's. -/
theorem index_onto : ∀ q : Fin 10, ∃ t : Fin cfg0.N, win0_2.index t = ![q.val, 0] :=
  (by decide +kernel : ∀ q : Fin 10, ∃ t : Fin grid0.N, win0_2.index t = ![q.val, 0])

/-- What point `t` writes back is block `t` of the product of the two argument arrays as the region finds them. -/
theorem flushed_eq (c : Dev nD) (t : Fin cfg0.N) :
    (dat0 V c).flushed 2 t
      = ((cfg0.win 2).blk t).view.read (Elt Ideal) (Layer.transform (V c main_arg0) (V c main_arg2)) := by
  show (cfg0.win 2).cut (grid0.coords t) ((dat0 V c).after 2 t) = _
  rw [after0_2]
  unfold out0_2
  rw [View.canon_unit_zero zero_offsets]
  simp only [View.ld_unit_zero (S := S1000x1024) zero_offsets, View.ld_unit_zero (S := S1024x1024) zero_offsets]
  obtain ⟨e0, e1, e2, e3, e4⟩ := index_facts t
  funext j
  refine (payload_apply (iblk0 V c 0 t) (iblk0 V c 1 t) j).trans ?_
  -- a block read at `j` is the array at the block's embedding of `j`
  show _ = Layer.transform (V c main_arg0) (V c main_arg2) (((cfg0.win 2).blk t).view.emb j)
  unfold Layer.transform
  refine Finset.sum_congr rfl fun k _ => ?_
  -- factor by factor: each block is read at the array's entry the block's embedding names
  refine congrArg₂ _ ?_ ?_
  · show V c main_arg0 (((cfg0.win 0).blk t).view.emb (ix2 (⟨(j 0).val, (j 0).isLt⟩ : Fin 1000) k))
        = V c main_arg0 (ix2 (Layer.row (((cfg0.win 2).blk t).view.emb j)) k)
    refine congrArg (V c main_arg0) ?_
    funext a; apply Fin.ext
    match a with
    | ⟨0, _⟩ =>
      show win0_0.index t (0 : Fin 2) * 1000 + 1 * (j 0).val = win0_2.index t (0 : Fin 2) * 1000 + 1 * (j 0).val
      omega
    | ⟨1, _⟩ =>
      show win0_0.index t (1 : Fin 2) * 1024 + 1 * k.val = k.val
      omega
  · show V c main_arg2 (((cfg0.win 1).blk t).view.emb (ix2 k (⟨(j 1).val, (j 1).isLt⟩ : Fin 1024)))
        = V c main_arg2 (ix2 k (Layer.col (((cfg0.win 2).blk t).view.emb j)))
    refine congrArg (V c main_arg2) ?_
    funext a; apply Fin.ext
    match a with
    | ⟨0, _⟩ =>
      show win0_1.index t (0 : Fin 2) * 1024 + 1 * k.val = k.val
      omega
    | ⟨1, _⟩ =>
      show win0_1.index t (1 : Fin 2) * 1024 + 1 * (j 1).val = win0_2.index t (1 : Fin 2) * 1024 + 1 * (j 1).val
      omega

/-- An entry of the array is in point `t`'s block when each coordinate is in the block's range on its axis. -/
theorem mem_block (t : Fin cfg0.N) (i : S10000x1024.Idx) :
    i ∈ ((cfg0.win 2).blk t).view.set ↔ ∀ a : Fin 2, win0_2.index t a * S1000x1024.size a ≤ (i a).val
      ∧ (i a).val < win0_2.index t a * S1000x1024.size a + S1000x1024.size a := by
  show i ∈ ((View.whole main_v31).slice (win0_2.rect t)).set ↔ _
  rw [View.set_slice_whole, Rect.mem_set_unit]
  exact Iff.rfl

/-- The blocks tile the array: row `r` lies in block `r / 1000`, which takes every column. -/
theorem covered (i : S10000x1024.Idx) :
    ∃ t : Fin cfg0.N, (cfg0.win 2).flush t = true ∧ i ∈ ((cfg0.win 2).blk t).view.set := by
  have hi0 : (i 0).val < 10000 := (i 0).isLt
  have hi1 : (i 1).val < 1024 := (i 1).isLt
  obtain ⟨t, ht⟩ := index_onto ⟨(i 0).val / 1000, by omega⟩
  have q0 : win0_2.index t (0 : Fin 2) = (i 0).val / 1000 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 1000 ≤ (i 0).val ∧ (i 0).val < win0_2.index t (0 : Fin 2) * 1000 + 1000
    omega
  | ⟨1, _⟩ =>
    show win0_2.index t (1 : Fin 2) * 1024 ≤ (i 1).val ∧ (i 1).val < win0_2.index t (1 : Fin 2) * 1024 + 1024
    omega

/-- After the region the result array is the product of the two argument arrays as the region found them. -/
theorem array_eq (c : Dev nD) :
    (dat0 V c).arrAt 2 cfg0.N = Layer.transform (V c main_arg0) (V c main_arg2) :=
  (dat0 V c).arrAt_eq_of_cover 2 (Layer.transform (V c main_arg0) (V c main_arg2))
    (fun t _ => flushed_eq V c t) covered

end Cert.KernelIdeal.TransformRegion

end
-- ==== Proof.ActivateRegion.lean ====
/-
  Region 1: bias and threshold, 1000 rows at a time over a grid of ten points.

  At a point `t` the body loads block `t` of the aggregated array (rows 1000 t … 1000 t + 999) and the bias as a one-row
  array, spreads that row over the block's 1000 rows, adds, and takes the larger of the sum and zero. Entry `(p, q)` of
  what it stores is `max (a_blk (p, q) + b_row (0, q)) 0`, and row `p` of the block is row `1000 t + p` of the array; so
  what point `t` writes back is block `t` of `Layer.activate a b`, `b` being the one-row array read as a vector. The ten
  blocks tile the 10000 rows, so after the region the result array is `Layer.activate a b`. Everything is stated at the
  contents `V` the region is entered from.
-/
import proofs.«114193_j7945689497773_1_alg».proof.Proof.Gen.KernelIdeal.Frame
import proofs.«114193_j7945689497773_1_alg».proof.Proof.Layer
import Idealize.ShloMosaic.Lib.Pipeline.Value
import Idealize.ShloMosaic.Lib.ValueIdx
import Idealize.ShloMosaic.Lib.ValueLayout

set_option maxRecDepth 16384

noncomputable section

namespace Cert.KernelIdeal.ActivateRegion

open Cert.KernelIdeal Cert.KernelIdeal.Gen
open Idealize.ShloMosaic Idealize.ShloMosaic.TcCoe Idealize.SL.Sem Idealize.ShloMosaic.ValueIdx
open Idealize.ShloMosaic.Pipeline (Dat)

/-- A one-row array `[1, 1024]` read as the vector of its row. -/
def biasRow (b2 : (⟨2, ![1, 1024]⟩ : Shape).Idx → EReal) : (⟨1, ![1024]⟩ : Shape).Idx → EReal :=
  fun i => b2 (ix2 (0 : Fin 1) (⟨(i 0).val, (i 0).isLt⟩ : Fin 1024))

/-! ## One block, entry by entry -/

/-- What the body stores at entry `(p, q)` of the block: the larger of `x0 (p, q) + x1 (0, q)` and zero. The two casts
    keep the shape, so they change nothing; the broadcast reads the one row at the entry's column. -/
theorem payload_apply (x0 : Vec Ideal S1000x1024 .f32) (x1 : Vec Ideal S1x1024 .f32) (p : Fin 1000) (q : Fin 1024) :
    k1_pay1 (F := Ideal) x0 x1 (ix2 p q)
      = max (x0 (ix2 p q) + x1 (ix2 (0 : Fin 1) q)) (Ideal.ofBits .f32 0x00000000#32) := by
  unfold k1_pay1
  exact congrArg₂ max
    (congrArg₂ (· + ·) (congrFun (shapeCast_self x0 _) (ix2 p q))
      ((broadcastTo_1b_ab_apply _ _ p q).trans (congrFun (shapeCast_self x1 _) (ix2 (0 : Fin 1) q))))
    rfl

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The index maps, decided over the ten points: the aggregated array's block moves with the output's block, and the
    bias's block is its one row. -/
theorem index_facts : ∀ t : Fin cfg1.N, win1_0.index t (0 : Fin 2) = win1_2.index t (0 : Fin 2)
    ∧ win1_0.index t (1 : Fin 2) = win1_2.index t (1 : Fin 2)
    ∧ win1_1.index t (0 : Fin 2) = 0
    ∧ win1_1.index t (1 : Fin 2) = 0
    ∧ win1_2.index t (1 : Fin 2) = 0 :=
  (by decide +kernel : ∀ t : Fin grid1.N, _)

/-- Each of the ten blocks of rows is some point's. -/
theorem index_onto : ∀ q : Fin 10, ∃ t : Fin cfg1.N, win1_2.index t = ![q.val, 0] :=
  (by decide +kernel : ∀ q : Fin 10, ∃ t : Fin grid1.N, win1_2.index t = ![q.val, 0])

/-- What point `t` writes back is block `t` of bias-and-threshold of the two arrays as the region finds them. -/
theorem flushed_eq (c : Dev nD) (t : Fin cfg1.N) :
    (dat1 V c).flushed 2 t
      = ((cfg1.win 2).blk t).view.read (Elt Ideal) (Layer.activate (V c main_v44) (biasRow (V c main_v45))) := by
  show (cfg1.win 2).cut (grid1.coords t) ((dat1 V c).after 2 t) = _
  rw [after1_2]
  unfold out1_2
  rw [View.canon_unit_zero zero_offsets]
  simp only [View.ld_unit_zero (S := S1000x1024) zero_offsets, View.ld_unit_zero (S := S1x1024) zero_offsets]
  obtain ⟨e0, e1, e2, e3, e4⟩ := index_facts t
  funext j
  obtain ⟨p, q, rfl⟩ : ∃ (p : Fin 1000) (q : Fin 1024), j = ix2 p q := ⟨j 0, j 1, eq_ix2 j⟩
  refine (payload_apply (iblk1 V c 0 t) (iblk1 V c 1 t) p q).trans ?_
  -- a block read at an entry is the array at the block's embedding of the entry
  show _ = Layer.activate (V c main_v44) (biasRow (V c main_v45)) (((cfg1.win 2).blk t).view.emb (ix2 p q))
  unfold Layer.activate biasRow
  -- the threshold's zero is the same word on both sides; then summand by summand
  refine congrArg₂ _ ?_ rfl
  refine congrArg₂ _ ?_ ?_
  · show V c main_v44 (((cfg1.win 0).blk t).view.emb (ix2 p q))
        = V c main_v44 (((cfg1.win 2).blk t).view.emb (ix2 p q))
    refine congrArg (V c main_v44) ?_
    funext a; apply Fin.ext
    match a with
    | ⟨0, _⟩ =>
      show win1_0.index t (0 : Fin 2) * 1000 + 1 * p.val = win1_2.index t (0 : Fin 2) * 1000 + 1 * p.val
      omega
    | ⟨1, _⟩ =>
      show win1_0.index t (1 : Fin 2) * 1024 + 1 * q.val = win1_2.index t (1 : Fin 2) * 1024 + 1 * q.val
      omega
  · show V c main_v45 (((cfg1.win 1).blk t).view.emb (ix2 (0 : Fin 1) q))
        = V c main_v45 (ix2 (0 : Fin 1) (Layer.col (((cfg1.win 2).blk t).view.emb (ix2 p q))))
    refine congrArg (V c main_v45) ?_
    funext a; apply Fin.ext
    match a with
    | ⟨0, _⟩ =>
      show win1_1.index t (0 : Fin 2) * 1 + 1 * 0 = 0
      omega
    | ⟨1, _⟩ =>
      show win1_1.index t (1 : Fin 2) * 1024 + 1 * q.val = win1_2.index t (1 : Fin 2) * 1024 + 1 * q.val
      omega

/-- An entry of the array is in point `t`'s block when each coordinate is in the block's range on its axis. -/
theorem mem_block (t : Fin cfg1.N) (i : S10000x1024.Idx) :
    i ∈ ((cfg1.win 2).blk t).view.set ↔ ∀ a : Fin 2, win1_2.index t a * S1000x1024.size a ≤ (i a).val
      ∧ (i a).val < win1_2.index t a * S1000x1024.size a + S1000x1024.size a := by
  show i ∈ ((View.whole main_v46).slice (win1_2.rect t)).set ↔ _
  rw [View.set_slice_whole, Rect.mem_set_unit]
  exact Iff.rfl

/-- The blocks tile the array: row `r` lies in block `r / 1000`, which takes every column. -/
theorem covered (i : S10000x1024.Idx) :
    ∃ t : Fin cfg1.N, (cfg1.win 2).flush t = true ∧ i ∈ ((cfg1.win 2).blk t).view.set := by
  have hi0 : (i 0).val < 10000 := (i 0).isLt
  have hi1 : (i 1).val < 1024 := (i 1).isLt
  obtain ⟨t, ht⟩ := index_onto ⟨(i 0).val / 1000, by omega⟩
  have q0 : win1_2.index t (0 : Fin 2) = (i 0).val / 1000 := congrFun ht 0
  have q1 : win1_2.index t (1 : Fin 2) = 0 := congrFun ht 1
  refine ⟨t, flush1_2 t, ?_⟩
  rw [mem_block]
  intro a
  match a with
  | ⟨0, _⟩ =>
    show win1_2.index t (0 : Fin 2) * 1000 ≤ (i 0).val ∧ (i 0).val < win1_2.index t (0 : Fin 2) * 1000 + 1000
    omega
  | ⟨1, _⟩ =>
    show win1_2.index t (1 : Fin 2) * 1024 ≤ (i 1).val ∧ (i 1).val < win1_2.index t (1 : Fin 2) * 1024 + 1024
    omega

/-- After the region the result array is bias-and-threshold of the aggregated array and the bias row, both as the region
    found them. -/
theorem array_eq (c : Dev nD) :
    (dat1 V c).arrAt 2 cfg1.N = Layer.activate (V c main_v44) (biasRow (V c main_v45)) :=
  (dat1 V c).arrAt_eq_of_cover 2 (Layer.activate (V c main_v44) (biasRow (V c main_v45)))
    (fun t _ => flushed_eq V c t) covered

end Cert.KernelIdeal.ActivateRegion

end
-- ==== Proof.KernelValue.lean ====
/-
  The kernel's result is the layer of its arguments.

  The result's buffer ends at what region 1's write-backs leave, which is bias-and-threshold of the two arrays region 1
  was entered with: the aggregated array and the bias as one row. The aggregated array was written by the host
  operations between the regions: it is the aggregation of region 0's result array over the sources, targets and edge
  weights — buffers region 0 does not touch, so they still hold what the host operations before region 0 computed from
  the edge list. Region 0's result array is the product of the features and the weight, which no host operation
  writes. And the one-row bias is the bias cast to one row, which read as a vector is the bias again. Put together:
  `activate (aggregate … (transform x W)) b`, the layer.
-/
import proofs.«114193_j7945689497773_1_alg».proof.Proof.Gen.KernelIdeal.Frame
import proofs.«114193_j7945689497773_1_alg».proof.Proof.Layer
import proofs.«114193_j7945689497773_1_alg».proof.Proof.HostFunctions
import proofs.«114193_j7945689497773_1_alg».proof.Proof.HostChain
import proofs.«114193_j7945689497773_1_alg».proof.Proof.TransformRegion
import proofs.«114193_j7945689497773_1_alg».proof.Proof.ActivateRegion
import Idealize.ShloMosaic.Lib.ValueIdx
import Idealize.ShloMosaic.Lib.ValueLayout

set_option maxRecDepth 16384

noncomputable section

namespace Cert.KernelIdeal.LayerValue

open Cert.KernelIdeal Cert.KernelIdeal.Gen Cert.KernelIdeal.HostChain
open Idealize.ShloMosaic Idealize.ShloMosaic.TcCoe Idealize.SL.Sem Idealize.ShloMosaic.ValueIdx

variable (m : (ℓ : Loc nD τ sig) → Buf (Elt Ideal) ℓ) (ρ : Dev nD → PrngReg)

/-- After the last region the result's buffer holds the layer of the four arguments as launched. -/
theorem result_eq (c : Dev nD) :
    W6 m ρ c (Proc.devRef .tc main_v46)
      = layer (m ((c : Thread nD τ).loc main_arg0)) (m ((c : Thread nD τ).loc main_arg1))
          (m ((c : Thread nD τ).loc main_arg2)) (m ((c : Thread nD τ).loc main_arg3)) := by
  -- region 0 writes only its result array: the edge data and the bias are as the first host stretches left them
  have h3 : W4 m ρ c (Proc.devRef .tc main_v3) = sources (m ((c : Thread nD τ).loc main_arg1)) :=
    (W4_of_ne m ρ c main_v3 (by decide)).trans (sources_at_entry m ρ c)
  have h6 : W4 m ρ c (Proc.devRef .tc main_v6) = targets (m ((c : Thread nD τ).loc main_arg1)) :=
    (W4_of_ne m ρ c main_v6 (by decide)).trans (targets_at_entry m ρ c)
  have h30 : W4 m ρ c (Proc.devRef .tc main_v30)
      = edgeWeights (sources (m ((c : Thread nD τ).loc main_arg1))) (targets (m ((c : Thread nD τ).loc main_arg1))) :=
    (W4_of_ne m ρ c main_v30 (by decide)).trans (weights_at_entry m ρ c)
  have hb : W4 m ρ c (Proc.devRef .tc main_arg3) = m ((c : Thread nD τ).loc main_arg3) :=
    (W4_of_ne m ρ c main_arg3 (by decide)).trans (bias_at_entry m ρ c)
  -- its result array is the product of the features and the weight as launched
  have h31 : W4 m ρ c (Proc.devRef .tc main_v31)
      = Layer.transform (m ((c : Thread nD τ).loc main_arg0)) (m ((c : Thread nD τ).loc main_arg2)) :=
    (W4_arr m ρ c 2).trans ((TransformRegion.array_eq (V3 m ρ) c).trans
      (congrArg₂ Layer.transform (features_at_entry m ρ c) (weight_at_entry m ρ c)))
  -- so region 1 is entered with the aggregation of that product …
  have h44 : W5 m ρ c (Proc.devRef .tc main_v44)
      = aggregate (sources (m ((c : Thread nD τ).loc main_arg1))) (targets (m ((c : Thread nD τ).loc main_arg1)))
          (edgeWeights (sources (m ((c : Thread nD τ).loc main_arg1))) (targets (m ((c : Thread nD τ).loc main_arg1))))
          (Layer.transform (m ((c : Thread nD τ).loc main_arg0)) (m ((c : Thread nD τ).loc main_arg2))) := by
    rw [aggregated_at_entry, h3, h6, h30, h31]
  -- … and with the bias as one row, which read as a vector is the bias
  have h45 : ActivateRegion.biasRow (W5 m ρ c (Proc.devRef .tc main_v45)) = m ((c : Thread nD τ).loc main_arg3) := by
    rw [bias_row_at_entry, hb]
    funext i
    obtain ⟨q, rfl⟩ : ∃ q : Fin 1024, i = ix1 q := ⟨i 0, eq_ix1 i⟩
    exact shapeCast_a_1a_apply _ _ (0 : Fin 1) q
  exact (W6_arr m ρ c 2).trans ((ActivateRegion.array_eq (V5 m ρ) c).trans (congrArg₂ Layer.activate h44 h45))

end Cert.KernelIdeal.LayerValue

end
-- ==== Proof.ReferenceValue.lean ====
/-
  The reference's result is the layer of its arguments.

  The reference's run ends at one composed term of its arguments: the threshold at zero of the aggregated product plus
  the bias spread over the whole array. Opened once, that term is the named host functions applied to the host's matrix
  product `x · W`. The host's product of a 10000 × 1024 array with a 1024 × 1024 one, contracting the first's columns
  with the second's rows, is entry by entry the sum over `k` of `x (r, k) * w (k, c)`: `Layer.transform`. And the bias,
  broadcast first to one row and then over the 10000 rows, reads at `(r, c)` as `b c`, so the last two operations are
  `Layer.activate`. Together: the layer.
-/
import proofs.«114193_j7945689497773_1_alg».proof.Proof.ReferenceRun
import proofs.«114193_j7945689497773_1_alg».proof.Proof.Layer
import proofs.«114193_j7945689497773_1_alg».proof.Proof.HostFunctions
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.LayerValue

open Cert.ReferenceIdeal Cert.ReferenceIdeal.Gen
open Idealize.ShloMosaic Idealize.ShloMosaic.TcCoe Idealize.SL.Sem Idealize.ShloMosaic.ValueIdx

/-! ## The host's matrix product, entry by entry -/

/-- The dimension numbers of the reference's product: the 10000 × 1024 features times the 1024 × 1024 weight,
    contracting the features' columns with the weight's rows. -/
abbrev wholeDot : DotDims S10000x1024 S1024x1024 S10000x1024 := dot_S10000x1024_S1024x1024_S10000x1024_1_0_0_1_n_n

/-- The left operand is read in the output entry's row … -/
theorem lhs_row (i : S10000x1024.Idx) (q : wholeDot.contr.Idx) : (wholeDot.lhsIdx i q 0).val = (i 0).val := by
  unfold DotDims.lhsIdx
  rw [dif_neg (show ¬(0 : Fin S10000x1024.rank) ∈ wholeDot.lhsBatch by decide),
    dif_pos (show (0 : Fin S10000x1024.rank) ∈ wholeDot.lhsNonContracting by decide)]
  rfl
/-- … at the contraction position's column; -/
theorem lhs_k (i : S10000x1024.Idx) (q : wholeDot.contr.Idx) : (wholeDot.lhsIdx i q 1).val = (q ⟨0, by decide⟩).val :=
  wholeDot.lhsIdx_val_of_single rfl i q
/-- the right operand is read at the contraction position's row … -/
theorem rhs_k (i : S10000x1024.Idx) (q : wholeDot.contr.Idx) : (wholeDot.rhsIdx i q 0).val = (q ⟨0, by decide⟩).val :=
  wholeDot.rhsIdx_val_of_single rfl i q
/-- … in the output entry's column. -/
theorem rhs_col (i : S10000x1024.Idx) (q : wholeDot.contr.Idx) : (wholeDot.rhsIdx i q 1).val = (i 1).val := by
  unfold DotDims.rhsIdx
  rw [dif_neg (show ¬(1 : Fin S1024x1024.rank) ∈ wholeDot.rhsBatch by decide),
    dif_pos (show (1 : Fin S1024x1024.rank) ∈ wholeDot.rhsNonContracting by decide)]
  rfl

/-- The host's product is the layer's dense transform: at every entry the host's `dot_general` is the bare sum over the
    contraction index, re-indexed by that one axis's coordinate. -/
theorem product_eq (x : FVec Ideal S10000x1024 .f32) (w : FVec Ideal S1024x1024 .f32) :
    Host.dotGeneral wholeDot none x w = Layer.transform x w := by
  funext i
  simp only [Host.dotGeneral]
  rw [Ideal.dotGeneral_apply, ← Equiv.sum_comp (contrEquiv1 wholeDot 1024 rfl rfl).symm]
  show _ = ∑ k : Fin 1024, x (ix2 (Layer.row i) k) * w (ix2 k (Layer.col i))
  refine Finset.sum_congr rfl fun k _ => ?_
  have hk := contrEquiv1_symm_val wholeDot 1024 rfl rfl k
  have el : wholeDot.lhsIdx i ((contrEquiv1 wholeDot 1024 rfl rfl).symm k) = ix2 (Layer.row i) k :=
    funext fun a => Fin.ext (by
      match a with
      | ⟨0, _⟩ => exact lhs_row _ _
      | ⟨1, _⟩ => exact (lhs_k _ _).trans hk)
  have er : wholeDot.rhsIdx i ((contrEquiv1 wholeDot 1024 rfl rfl).symm k) = ix2 k (Layer.col i) :=
    funext fun a => Fin.ext (by
      match a with
      | ⟨0, _⟩ => exact (rhs_k _ _).trans hk
      | ⟨1, _⟩ => exact rhs_col _ _)
  rw [el, er]

/-! ## The bias spread over the array, and the threshold -/

/-- Adding the bias broadcast to one row and then over all rows, and taking the larger of the sum and the zero splat, is
    bias-and-threshold: the doubly broadcast bias reads at `(r, c)` as `b c`. -/
theorem activate_eq (a : FVec Ideal S10000x1024 .f32) (b : FVec Ideal S1024 .f32) :
    maximumf
        (addf a (broadcastInDim S10000x1024 ![0, 1] bcast_S1x1024_S10000x1024_0_1
          (broadcastInDim S1x1024 ![1] bcast_S1024_S1x1024_1 b)))
        (broadcastInDim S10000x1024 ![] bcast_S_S10000x1024 (constant (F := Ideal) S_ .f32 0x00000000#32))
      = Layer.activate a b := by
  funext i
  show max (a i + broadcastInDim S10000x1024 ![0, 1] bcast_S1x1024_S10000x1024_0_1
        (broadcastInDim S1x1024 ![1] bcast_S1024_S1x1024_1 b) i) (Ideal.ofBits .f32 0x00000000#32)
      = max (a i + b (ix1 (Layer.col i))) (Ideal.ofBits .f32 0x00000000#32)
  refine congrArg (fun z => max (a i + z) (Ideal.ofBits .f32 0x00000000#32)) ?_
  refine (broadcastInDim_apply _ _ _ i (ix2 (0 : Fin 1) (Layer.col i)) ?_).trans
    (broadcastInDim_apply _ _ b (ix2 (0 : Fin 1) (Layer.col i)) (ix1 (Layer.col i)) ?_)
  · intro ax
    match ax with
    | ⟨0, _⟩ => rfl
    | ⟨1, _⟩ => rfl
  · intro ax
    match ax with
    | ⟨0, _⟩ => rfl

/-! ## The run's term -/

variable (m : (ℓ : Loc nD τ sig) → Buf (Elt Ideal) ℓ)

/-- The run's composed term, opened once: the named host functions over the host's product, then the bias spread
    over the array and the threshold. The two programs print the same operations with the same dimension numbers, so
    the two spellings unfold to one term. -/
theorem term_eq (c : Dev nD) :
    ValueP.res_main_v48 (F := Ideal) m c
      = maximumf
          (addf
            (Cert.KernelIdeal.HostChain.aggregate
              (Cert.KernelIdeal.HostChain.sources (m ((c.tc : Thread nD τ).loc main_arg1)))
              (Cert.KernelIdeal.HostChain.targets (m ((c.tc : Thread nD τ).loc main_arg1)))
              (Cert.KernelIdeal.HostChain.edgeWeights
                (Cert.KernelIdeal.HostChain.sources (m ((c.tc : Thread nD τ).loc main_arg1)))
                (Cert.KernelIdeal.HostChain.targets (m ((c.tc : Thread nD τ).loc main_arg1))))
              (Host.dotGeneral (φ₁ := .f32) (φ₂ := .f32) wholeDot none (m ((c.tc : Thread nD τ).loc main_arg0)) (m ((c.tc : Thread nD τ).loc main_arg2))))
            (broadcastInDim S10000x1024 ![0, 1] bcast_S1x1024_S10000x1024_0_1
              (broadcastInDim S1x1024 ![1] bcast_S1024_S1x1024_1 (m ((c.tc : Thread nD τ).loc main_arg3)))))
          (broadcastInDim S10000x1024 ![] bcast_S_S10000x1024 (constant (F := Ideal) S_ .f32 0x00000000#32)) := rfl

/-- The reference's result is the layer of its four arguments as launched. -/
theorem result_eq (c : Dev nD) :
    ValueP.res_main_v48 (F := Ideal) m c
      = Cert.KernelIdeal.HostChain.layer (m ((c.tc : Thread nD τ).loc main_arg0)) (m ((c.tc : Thread nD τ).loc main_arg1))
          (m ((c.tc : Thread nD τ).loc main_arg2)) (m ((c.tc : Thread nD τ).loc main_arg3)) := by
  refine (term_eq m c).trans ?_
  rw [product_eq]
  exact activate_eq _ _

end Cert.ReferenceIdeal.LayerValue

end
-- ==== Proof.lean ====
/-
  A graph-convolution layer, `relu (A (x · W) + b)`, as a Pallas kernel against its jnp reference: equal results on the
  extended reals, entry by entry, from equal arguments.

  `x` is 10000 × 1024 node features, `W` a 1024 × 1024 weight, `b` a bias of 1024, and `A` the aggregation over 160000
  edges and one self loop per node: the row of every edge's source, scaled by the product of `deg^(-1/2)` at the
  edge's two ends, added into the row of the edge's target. The reference forms `x · W` as one host product, aggregates,
  adds the bias spread over the array and thresholds at zero. The kernel's program forms `x · W` in a first region, 1000
  rows at a time with both operands narrowed to bf16 (the identity on the extended reals) and a zero accumulator,
  aggregates with the same host operations, and adds the bias and thresholds in a second region, again 1000 rows at a
  time, the bias passed as a one-row array. The degree, the weights and the aggregation are the same operations in both
  programs and are never opened; an edge list is arbitrary 32-bit numbers and both programs treat it alike.

  What is proved by hand: each region's result array is one function of the arrays it is entered with (the blocks
  tile the rows, and a block's entry is the array's entry the block's position names); a block of the product is the
  sum over the contracted index, as the host's product is; a one-row bias read along the rows is the bias; and
  therefore both programs end at `layer x e W b`. No law used moves a factor across a sum or cancels, so the
  precondition (finite inputs) is never opened. The idealization rewrote nothing, so `preserves` is `True`.
-/
import proofs.«114193_j7945689497773_1_alg».proof.Defs
import proofs.«114193_j7945689497773_1_alg».proof.Proof.Gen.Kernel
import proofs.«114193_j7945689497773_1_alg».proof.Proof.Gen.Kernel.Skeleton
import proofs.«114193_j7945689497773_1_alg».proof.Proof.Gen.Kernel.Launch
import proofs.«114193_j7945689497773_1_alg».proof.Proof.Gen.Kernel.Points
import proofs.«114193_j7945689497773_1_alg».proof.Proof.Gen.Kernel.Frame
import proofs.«114193_j7945689497773_1_alg».proof.Proof.Gen.KernelIdeal
import proofs.«114193_j7945689497773_1_alg».proof.Proof.Gen.KernelIdeal.Skeleton
import proofs.«114193_j7945689497773_1_alg».proof.Proof.Gen.KernelIdeal.Launch
import proofs.«114193_j7945689497773_1_alg».proof.Proof.Gen.KernelIdeal.Points
import proofs.«114193_j7945689497773_1_alg».proof.Proof.Gen.KernelIdeal.Frame
import proofs.«114193_j7945689497773_1_alg».proof.Proof.Gen.ReferenceIdeal
import proofs.«114193_j7945689497773_1_alg».proof.Proof.Gen.Pre_finite_inputs
import proofs.«114193_j7945689497773_1_alg».proof.Proof.ReferenceRun
import proofs.«114193_j7945689497773_1_alg».proof.Proof.KernelRun
import proofs.«114193_j7945689497773_1_alg».proof.Proof.KernelValue
import proofs.«114193_j7945689497773_1_alg».proof.Proof.ReferenceValue
import Idealize.ShloMosaic.Adequacy
import Idealize.ShloMosaic.Init

noncomputable section

namespace Cert.Proof

open Idealize.ShloMosaic Idealize.SL.Sem

/-- The kernel's program as printed runs and leaves its arguments alone. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference is host operations only: its frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both programs end at the layer of those arguments: the kernel's result
    buffer at what its last region leaves, which is the layer; the reference's at its run's term, which is the layer
    of its own arguments, and these are the kernel's. -/
theorem algebraic : Cert.algebraic_KernelIdeal_ReferenceIdeal := by
  intro m ρ m' ρ' _ hagree
  refine ⟨fun c => Cert.KernelIdeal.HostChain.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.LayerValue.result_eq m ρ c), (h c).2⟩)
      (Cert.KernelIdeal.RunValue.run_result m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.LayerValue.result_eq m' c, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
